-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The specification both programs are compared with: two GraphSAGE layers over the extended reals.

  One layer's dense stage, at row `r` and output feature `j`, is
      (∑ₖ mean[r,k] · Wl[j,k]) + (∑ₖ x[r,k] · Wr[j,k]) + b[j]
  (`mean @ Wlᵀ + x @ Wrᵀ + b`), the first layer followed by `max(·, 0)`.  The neighbour mean that
  feeds it is a PARAMETER here (`mean : features ↦ aggregated features`): the two programs spell it
  differently (a product with a reciprocal against a quotient), and the network is the same function
  of whichever spelling is put in.  This module mentions no program.
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes, 128 features. -/
abbrev SN : Shape := ⟨2, ![100000, 128]⟩
/-- A weight matrix, stored output-feature major: `W[j,k]`. -/
abbrev SW : Shape := ⟨2, ![128, 128]⟩
/-- A bias vector. -/
abbrev SB : Shape := ⟨1, ![128]⟩

/-- The dense stage at row `r`, output feature `j`. -/
def denseAt (mean x : SN.Idx → EReal) (Wl Wr : SW.Idx → EReal) (b : SB.Idx → EReal) (r : Fin 100000) (j : Fin 128) : EReal :=
  (∑ k : Fin 128, mean (ix2 r k) * Wl (ix2 j k)) + (∑ k : Fin 128, x (ix2 r k) * Wr (ix2 j k)) + b (ix1 j)

/-- The dense stage as an array: `mean @ Wlᵀ + x @ Wrᵀ + b`. -/
def dense (mean x : SN.Idx → EReal) (Wl Wr : SW.Idx → EReal) (b : SB.Idx → EReal) : SN.Idx → EReal :=
  fun i => denseAt mean x Wl Wr b (i 0) (i 1)

/-- The dense stage followed by the rectifier. -/
def reluDense (mean x : SN.Idx → EReal) (Wl Wr : SW.Idx → EReal) (b : SB.Idx → EReal) : SN.Idx → EReal :=
  fun i => max (denseAt mean x Wl Wr b (i 0) (i 1)) 0

theorem dense_apply (mean x : SN.Idx → EReal) (Wl Wr : SW.Idx → EReal) (b : SB.Idx → EReal) (r : Fin 100000) (j : Fin 128) :
    dense mean x Wl Wr b (ix2 r j) = denseAt mean x Wl Wr b r j := rfl

theorem reluDense_apply (mean x : SN.Idx → EReal) (Wl Wr : SW.Idx → EReal) (b : SB.Idx → EReal) (r : Fin 100000) (j : Fin 128) :
    reluDense mean x Wl Wr b (ix2 r j) = max (denseAt mean x Wl Wr b r j) 0 := rfl

/-- The hidden features: the first layer, rectified. -/
def hidden (mean : (SN.Idx → EReal) → (SN.Idx → EReal)) (x : SN.Idx → EReal) (W1l W1r : SW.Idx → EReal) (b1 : SB.Idx → EReal) :
    SN.Idx → EReal :=
  reluDense (mean x) x W1l W1r b1

/-- The two-layer network for a given neighbour mean. -/
def net (mean : (SN.Idx → EReal) → (SN.Idx → EReal)) (x : SN.Idx → EReal) (W1l W1r : SW.Idx → EReal) (b1 : SB.Idx → EReal)
    (W2l W2r : SW.Idx → EReal) (b2 : SB.Idx → EReal) : SN.Idx → EReal :=
  dense (mean (hidden mean x W1l W1r b1)) (hidden mean x W1l W1r b1) W2l W2r b2

end Cert.Sage

end
-- ==== Proof.HostMean.lean ====
/-
  The neighbour mean, as each program's host operations spell it (definitions only).

  Both programs read the edge list `e : i32[2, E]` the same way: row 0 is the source of each edge
  (a negative entry wrapped by adding N, as jnp indexing does), row 1 its destination.  The features
  of the sources are gathered (one row per edge) and scatter-added into the rows of the
  destinations; the in-degree is the scatter-add of ones.  With `d = max(deg, 1)`:
    * the kernel's program multiplies the summed rows by the column `1 / d`  (`meanK`),
    * the reference divides the summed rows by the column `d`               (`meanR`).
  The kernel's program computes the wrapped sources, the destinations and `1 / d` once and reuses
  them for the second layer, so its mean is stated over those three arrays (`meanOf`).
-/
import proofs.«172413_j65103114273323_1_alg».proof.KernelIdeal
import proofs.«172413_j65103114273323_1_alg».proof.ReferenceIdeal
import proofs.«172413_j65103114273323_1_alg».proof.Proof.Spec

noncomputable section

namespace Cert.KernelIdeal.HostMean

open Idealize.ShloMosaic Cert.KernelIdeal Cert.KernelIdeal.Facts₀

variable [Cert.KernelIdeal.Facts]

/-- Row 0 of the edge list: the edges' sources. -/
def srcOf (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Row 1 of the edge list: the edges' destinations. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The in-degree of every node: ones scatter-added at the destinations. -/
def degOf (dstv : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dstv)
    (broadcastInDim S1600000 ![] bcast_S_S1600000 (constant (F := Ideal) S_ .f32 0x3F800000#32))

/-- The column `1 / max(deg, 1)`. -/
def invDegOf (dstv : (⟨S1600000, .i32⟩ : BufTy).Contents (Elt Ideal)) : (⟨S100000x1, .f32⟩ : BufTy).Contents (Elt Ideal) :=
  broadcastInDim S100000x1 ![0] bcast_S100000_S100000x1_0
    (Host.divf (F := Ideal) (φ := .f32) (broadcastInDim S100000 ![] bcast_S_S100000 (constant (F := Ideal) S_ .f32 0x3F800000#32))
      (maximumf (F := Ideal) (φ := .f32) (degOf dstv) (broadcastInDim S100000 ![] bcast_S_S100000 (constant (F := Ideal) S_ .f32 0x3F800000#32))))

/-- The sources as a column of start indices, a negative source wrapped by adding N. -/
def srcCol (srcv : (⟨S1600000, .i32⟩ : BufTy).Contents (Elt Ideal)) : (⟨S1600000x1, .i32⟩ : BufTy).Contents (Elt Ideal) :=
  broadcastInDim S1600000x1 ![0] bcast_S1600000_S1600000x1_0
    (select (cmpi .slt srcv (broadcastInDim S1600000 ![] bcast_S_S1600000 (constantI S_ 32 0#32)))
      (addi srcv (broadcastInDim S1600000 ![] bcast_S_S1600000 (constantI S_ 32 100000#32))) srcv)

/-- The rows of the sources gathered and scatter-added at the destinations: each node's summed neighbour features. -/
def aggOf (f : (⟨S100000x128, .f32⟩ : BufTy).Contents (Elt Ideal)) (srcv dstv : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dstv)
    (Host.gather gather_S100000x128_S1600000x1_S1600000x128_1_0_n_n_0_1_1128 f (srcCol srcv))

/-- The kernel program's neighbour mean over the three arrays it keeps: summed rows times the reciprocal column. -/
def meanOf (f : (⟨S100000x128, .f32⟩ : BufTy).Contents (Elt Ideal)) (srcv dstv : (⟨S1600000, .i32⟩ : BufTy).Contents (Elt Ideal))
    (inv : (⟨S100000x1, .f32⟩ : BufTy).Contents (Elt Ideal)) : (⟨S100000x128, .f32⟩ : BufTy).Contents (Elt Ideal) :=
  mulf (F := Ideal) (φ := .f32) (aggOf f srcv dstv) (broadcastInDim S100000x128 ![0, 1] bcast_S100000x1_S100000x128_0_1 inv)

/-- The kernel program's neighbour mean as a function of the features and the edge list. -/
def meanK (e : (⟨S2x1600000, .i32⟩ : BufTy).Contents (Elt Ideal)) (f : (⟨S100000x128, .f32⟩ : BufTy).Contents (Elt Ideal)) :
    (⟨S100000x128, .f32⟩ : BufTy).Contents (Elt Ideal) :=
  meanOf f (srcOf e) (dstOf e) (invDegOf (dstOf e))

end Cert.KernelIdeal.HostMean

namespace Cert.ReferenceIdeal.HostMean

open Idealize.ShloMosaic Cert.ReferenceIdeal Cert.ReferenceIdeal.Facts₀

variable [Cert.ReferenceIdeal.Facts]

/-- Row 0 of the edge list: the edges' sources. -/
def srcOf (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Row 1 of the edge list: the edges' destinations. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The in-degree of every node, floored at one: `max(deg, 1)`. -/
def clampDeg (e : (⟨S2x1600000, .i32⟩ : BufTy).Contents (Elt Ideal)) : (⟨S100000, .f32⟩ : BufTy).Contents (Elt Ideal) :=
  maximumf (F := Ideal) (φ := .f32)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dstOf e))
      (broadcastInDim S1600000 ![] bcast_S_S1600000 (constant (F := Ideal) S_ .f32 0x3F800000#32)))
    (broadcastInDim S100000 ![] bcast_S_S100000 (constant (F := Ideal) S_ .f32 0x3F800000#32))

/-- Each node's summed neighbour features. -/
def aggR (e : (⟨S2x1600000, .i32⟩ : BufTy).Contents (Elt Ideal)) (f : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstOf e))
    (Host.gather gather_S100000x128_S1600000x1_S1600000x128_1_0_n_n_0_1_1128 f
      (broadcastInDim S1600000x1 ![0] bcast_S1600000_S1600000x1_0
        (select (cmpi .slt (srcOf e) (broadcastInDim S1600000 ![] bcast_S_S1600000 (constantI S_ 32 0#32)))
          (addi (srcOf e) (broadcastInDim S1600000 ![] bcast_S_S1600000 (constantI S_ 32 100000#32))) (srcOf e))))

/-- The reference's neighbour mean: summed rows divided by the column `max(deg, 1)`. -/
def meanR (e : (⟨S2x1600000, .i32⟩ : BufTy).Contents (Elt Ideal)) (f : (⟨S100000x128, .f32⟩ : BufTy).Contents (Elt Ideal)) :
    (⟨S100000x128, .f32⟩ : BufTy).Contents (Elt Ideal) :=
  Host.divf (F := Ideal) (φ := .f32) (aggR e f)
    (broadcastInDim S100000x128 ![0, 1] bcast_S100000x1_S100000x128_0_1
      (broadcastInDim S100000x1 ![0] bcast_S100000_S100000x1_0 (clampDeg e)))

end Cert.ReferenceIdeal.HostMean

end
-- ==== Proof.MeanLaw.lean ====
/-
  The two spellings of the neighbour mean are one function on the extended reals.

  With `A` the summed neighbour rows and `d = max(deg, 1)` the floored in-degree, the kernel's program
  forms `A[n,j] · (1 / d[n])` and the reference `A[n,j] / d[n]`.  On the extended reals a quotient by a
  divisor other than zero is the product with the divisor's inverse, `a / d = a · d⁻¹`, and
  `1 / d = 1 · d⁻¹ = d⁻¹`; so the two agree wherever `d ≠ 0`, whatever `A` holds (infinite sums
  included) and even where `d` is infinite.  And `d = max(deg, 1) ≥ 1 > 0` is never zero.  Nothing here
  needs the inputs to be finite, and the gather and the scatter-add are never opened: both programs
  apply the same ones to the same arrays.
-/
import proofs.«172413_j65103114273323_1_alg».proof.Proof.HostMean
import Idealize.ShloMosaic.Lib.Pipeline.Value
import Idealize.ShloMosaic.Lib.ValueIdx
import Idealize.ShloMosaic.Lib.IdealHost

noncomputable section

namespace Cert.MeanLaw

open Idealize.ShloMosaic Idealize.ShloMosaic.ValueIdx

/-- A scalar. -/
abbrev S0 : Shape := ⟨0, ![]⟩
/-- One value per node. -/
abbrev S1 : Shape := ⟨1, ![100000]⟩
/-- One value per node, as a column. -/
abbrev SC : Shape := ⟨2, ![100000, 1]⟩

/-- On the extended reals, multiplying by `1 / d` is dividing by `d` when `d` is not zero. -/
theorem mul_one_div (a d : EReal) (hd : d ≠ 0) : a * Ideal.div 1 d = Ideal.div a d := by
  unfold Ideal.div
  rw [if_neg hd, if_neg hd, one_mul]

/-- The node (row) of an entry of the feature array. -/
abbrev rowOf (i : Cert.Sage.SN.Idx) : S1.Idx := fun a => match a with
  | ⟨0, _⟩ => ⟨(i 0).val, (i 0).isLt⟩

/-- The entry of the column that an entry of the feature array reads. -/
abbrev colOf (i : Cert.Sage.SN.Idx) : SC.Idx := fun a => match a with
  | ⟨0, _⟩ => ⟨(i 0).val, (i 0).isLt⟩
  | ⟨1, _⟩ => ⟨0, Nat.one_pos⟩

/-- A per-node vector turned into a column and repeated along the features reads the node's value. -/
theorem column_apply (h1 : S1.BroadcastsInDim SC ![0]) (h2 : SC.BroadcastsInDim Cert.Sage.SN ![0, 1])
    (y : S1.Idx → EReal) (i : Cert.Sage.SN.Idx) :
    broadcastInDim Cert.Sage.SN ![0, 1] h2 (broadcastInDim SC ![0] h1 y) i = y (rowOf i) := by
  rw [broadcastInDim_apply _ h2 _ i (colOf i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl]),
    broadcastInDim_apply _ h1 y (colOf i) (rowOf i) (fun a => match a with
      | ⟨0, _⟩ => by show (i 0).val = if (100000 : Nat) = 1 then 0 else (i 0).val; rw [if_neg (by decide)])]

/-- The array law: rows times the column `1 / d` are rows divided by the column `d`, for `d` nowhere zero. -/
theorem scale_eq_quot (h0 : S0.BroadcastsInDim S1 ![]) (h1 : S1.BroadcastsInDim SC ![0]) (h2 : SC.BroadcastsInDim Cert.Sage.SN ![0, 1])
    (A : FVec Ideal Cert.Sage.SN .f32) (D : FVec Ideal S1 .f32) (hD : ∀ n, D n ≠ 0) :
    mulf (F := Ideal) (φ := .f32) A (broadcastInDim Cert.Sage.SN ![0, 1] h2 (broadcastInDim SC ![0] h1
        (Host.divf (F := Ideal) (φ := .f32) (broadcastInDim S1 ![] h0 (constant (F := Ideal) S0 .f32 0x3F800000#32)) D)))
      = Host.divf (F := Ideal) (φ := .f32) A (broadcastInDim Cert.Sage.SN ![0, 1] h2 (broadcastInDim SC ![0] h1 D)) := by
  funext i
  rw [mulf_apply, hostDivf_apply, column_apply h1 h2, column_apply h1 h2, hostDivf_apply, broadcastInDim_scalar_apply,
    constant_apply, Ideal.ofBits_one_f32]
  exact mul_one_div _ _ (hD _)

/-- A maximum with the constant one is never zero. -/
theorem max_one_ne_zero (h0 : S0.BroadcastsInDim S1 ![]) (X : FVec Ideal S1 .f32) (n : S1.Idx) :
    maximumf (F := Ideal) (φ := .f32) X (broadcastInDim S1 ![] h0 (constant (F := Ideal) S0 .f32 0x3F800000#32)) n ≠ 0 := by
  rw [maximumf_apply, broadcastInDim_scalar_apply, constant_apply, Ideal.ofBits_one_f32]
  exact (lt_of_lt_of_le zero_lt_one (le_max_right _ _)).ne'

variable [Cert.KernelIdeal.Facts] [Cert.ReferenceIdeal.Facts]

/-- The kernel program's neighbour mean is the reference's, for every edge list and every feature array. -/
theorem meanK_eq_meanR (e : (⟨Cert.KernelIdeal.S2x1600000, .i32⟩ : BufTy).Contents (Elt Ideal))
    (f : (⟨Cert.KernelIdeal.S100000x128, .f32⟩ : BufTy).Contents (Elt Ideal)) :
    Cert.KernelIdeal.HostMean.meanK e f = Cert.ReferenceIdeal.HostMean.meanR e f := by
  have hagg : Cert.KernelIdeal.HostMean.aggOf f (Cert.KernelIdeal.HostMean.srcOf e) (Cert.KernelIdeal.HostMean.dstOf e)
      = Cert.ReferenceIdeal.HostMean.aggR e f := rfl
  unfold Cert.KernelIdeal.HostMean.meanK Cert.KernelIdeal.HostMean.meanOf Cert.KernelIdeal.HostMean.invDegOf
    Cert.ReferenceIdeal.HostMean.meanR
  rw [hagg]
  exact scale_eq_quot _ _ _ (Cert.ReferenceIdeal.HostMean.aggR e f) (Cert.ReferenceIdeal.HostMean.clampDeg e)
    (fun n => max_one_ne_zero _ _ n)

end Cert.MeanLaw

end
-- ==== Proof.RefValue.lean ====
/-
  The reference program's result is the two-layer network of the specification, with the reference's
  own spelling of the neighbour mean (summed neighbour rows divided by the column max(deg, 1)) put in.

  The neighbour mean stays opaque: the reference's gather / scatter-add stages are recognised as
  `HostMean.meanR` by unfolding definitions only.  The dense stages are read index by index: at row `r`
  and output feature `j` each `dot_general` against a transposed weight is the sum over `k` of
  `operand[r,k] · W[j,k]`, the bias is broadcast over the rows, and the reference adds
  `(mean·Wl + x·Wr) + b` in exactly the specification's order, so the two sides agree term for term.
-/
import proofs.«172413_j65103114273323_1_alg».proof.Proof.Gen.ReferenceIdeal.Read
import proofs.«172413_j65103114273323_1_alg».proof.Proof.HostMean

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ## The neighbour means are `meanR` -/

/-- The first layer's aggregation stage is the reference's neighbour mean of the input features. -/
theorem mean1 (x0 : (⟨S100000x128, .f32⟩ : BufTy).Contents (Elt Ideal)) (x1 : (⟨S2x1600000, .i32⟩ : BufTy).Contents (Elt Ideal)) :
    val_main_v22 (F := Ideal) x0 x1 = Cert.ReferenceIdeal.HostMean.meanR x1 x0 := rfl

/-- The second layer's aggregation stage is the same neighbour mean, of the hidden features. -/
theorem mean2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v50 (F := Ideal) x0 x1 x2 x3 x4
      = Cert.ReferenceIdeal.HostMean.meanR x1 (val_main_v31 (F := Ideal) x0 x1 x2 x3 x4) := rfl

/-! ## Index equations: where the dense stages read their operands -/

/-- The left operand of a contraction is read at row `r`, running coordinate `k`. -/
theorem lidx24 (r : Fin 100000) (j k : Fin 128) : lidx_main_v24 (ix2 r j) k = ix2 r k :=
  funext fun a => Fin.ext (by match a with | ⟨0, _⟩ => rfl | ⟨1, _⟩ => rfl)

/-- The transposed weight read at the right operand's index is the weight at `(j, k)`. -/
theorem ridx24 (r : Fin 100000) (j k : Fin 128) : idx_main_v23 (ridx_main_v24 (ix2 r j) k) = ix2 j k :=
  funext fun a => Fin.ext (by match a with | ⟨0, _⟩ => rfl | ⟨1, _⟩ => rfl)

theorem lidx26 (r : Fin 100000) (j k : Fin 128) : lidx_main_v26 (ix2 r j) k = ix2 r k :=
  funext fun a => Fin.ext (by match a with | ⟨0, _⟩ => rfl | ⟨1, _⟩ => rfl)

theorem ridx26 (r : Fin 100000) (j k : Fin 128) : idx_main_v25 (ridx_main_v26 (ix2 r j) k) = ix2 j k :=
  funext fun a => Fin.ext (by match a with | ⟨0, _⟩ => rfl | ⟨1, _⟩ => rfl)

/-- The bias, broadcast over the rows, is read at the output feature. -/
theorem bidx28 (r : Fin 100000) (j : Fin 128) : idx_main_v28 (idx_main_v29 (ix2 r j)) = ix1 j :=
  funext fun a => Fin.ext (by match a with | ⟨0, _⟩ => rfl)

theorem lidx52 (r : Fin 100000) (j k : Fin 128) : lidx_main_v52 (ix2 r j) k = ix2 r k :=
  funext fun a => Fin.ext (by match a with | ⟨0, _⟩ => rfl | ⟨1, _⟩ => rfl)

theorem ridx52 (r : Fin 100000) (j k : Fin 128) : idx_main_v51 (ridx_main_v52 (ix2 r j) k) = ix2 j k :=
  funext fun a => Fin.ext (by match a with | ⟨0, _⟩ => rfl | ⟨1, _⟩ => rfl)

theorem lidx54 (r : Fin 100000) (j k : Fin 128) : lidx_main_v54 (ix2 r j) k = ix2 r k :=
  funext fun a => Fin.ext (by match a with | ⟨0, _⟩ => rfl | ⟨1, _⟩ => rfl)

theorem ridx54 (r : Fin 100000) (j k : Fin 128) : idx_main_v53 (ridx_main_v54 (ix2 r j) k) = ix2 j k :=
  funext fun a => Fin.ext (by match a with | ⟨0, _⟩ => rfl | ⟨1, _⟩ => rfl)

theorem bidx56 (r : Fin 100000) (j : Fin 128) : idx_main_v56 (idx_main_v57 (ix2 r j)) = ix1 j :=
  funext fun a => Fin.ext (by match a with | ⟨0, _⟩ => rfl)

/-! ## The dense stages -/

set_option maxHeartbeats 400000 in
/-- The first layer: `max(mean @ Wlᵀ + x @ Wrᵀ + b, 0)` over whatever the aggregation stage holds. -/
theorem layer1 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v31 (F := Ideal) x0 x1 x2 x3 x4 = Cert.Sage.reluDense (val_main_v22 (F := Ideal) x0 x1) x0 x2 x3 x4 := by
  funext i
  obtain ⟨r, j, rfl⟩ : ∃ (r : Fin 100000) (j : Fin 128), i = ix2 r j := ⟨i 0, i 1, eq_ix2 i⟩
  rw [val_main_v31_apply, val_main_call0_v0_apply, val_main_call0_cst_apply, val_main_v30_apply, val_main_v29_apply,
    val_main_v28_apply, val_main_v27_apply, val_main_v24_apply, val_main_v26_apply]
  simp only [val_main_v23_apply, val_main_v25_apply, lidx24, ridx24, lidx26, ridx26, bidx28]
  rw [Cert.Sage.reluDense_apply]
  simp only [Ideal.maximumf_def, Ideal.addf_def, Ideal.ofBits_def, Ideal.ofBits_zero_f32]
  rfl

set_option maxHeartbeats 400000 in
/-- The second layer: `mean @ Wlᵀ + h @ Wrᵀ + b` over the hidden features `h` and their aggregation. -/
theorem layer2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v58 (F := Ideal) x0 x1 x2 x3 x4 x5 x6 x7
      = Cert.Sage.dense (val_main_v50 (F := Ideal) x0 x1 x2 x3 x4) (val_main_v31 (F := Ideal) x0 x1 x2 x3 x4) x5 x6 x7 := by
  funext i
  obtain ⟨r, j, rfl⟩ : ∃ (r : Fin 100000) (j : Fin 128), i = ix2 r j := ⟨i 0, i 1, eq_ix2 i⟩
  rw [val_main_v58_apply, val_main_v57_apply, val_main_v56_apply, val_main_v55_apply, val_main_v52_apply, val_main_v54_apply]
  simp only [val_main_v51_apply, val_main_v53_apply, lidx52, ridx52, lidx54, ridx54, bidx56]
  rw [Cert.Sage.dense_apply]
  simp only [Ideal.addf_def]
  rfl

/-! ## The network -/

/-- The reference's last stage, as a function of the eight arguments, is the specification's network. -/
theorem val_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v58 (F := Ideal) x0 x1 x2 x3 x4 x5 x6 x7
      = Cert.Sage.net (Cert.ReferenceIdeal.HostMean.meanR x1) x0 x2 x3 x4 x5 x6 x7 := by
  rw [layer2, mean2, layer1, mean1]
  rfl

/-- The reference's result buffer after its run holds the specification's network of the launch contents. -/
theorem res_eq (m : (ℓ : Loc nD τ sig) → Buf (Elt Ideal) ℓ) (c : Dev nD) :
    Cert.ReferenceIdeal.Value.res_main_v58 (F := Ideal) m c
      = Cert.Sage.net (Cert.ReferenceIdeal.HostMean.meanR (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  (val_main_v58_eq m c).trans (val_eq _ _ _ _ _ _ _ _)

end Cert.ReferenceIdeal.RefValue

end
-- ==== Proof.KernelRun.lean ====
/-
  The kernel program's run, with its result named.

  The program's buffer contents are followed through its four stretches: the launch memory, the first
  run of host operations, the first dense stage's row blocks, the second run of host operations, the
  second dense stage's row blocks (`Gen.W0` … `Gen.W4` of the imported frame module).  Every weakly
  fair execution from a memory with zero counters terminates without a fault; this module states
  that in every final state the result array holds what that fold ends with, `Gen.W4` at the result's
  buffer, and that the eight argument arrays are as launched.
-/
import proofs.«172413_j65103114273323_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program on the TensorCores
    terminates, nothing faulting; in every final state the result array `main_v38` holds the last
    boundary's contents `Gen.W4` (every unscoped buffer ends at them), and each argument array is as
    launched (no host operation and no region writes one). -/
theorem run_named : θ_run defs (onTc (τ := τ) (main (F := F))) ⟨m, fun _ => 0, ρ⟩ (fun r => ∀ c : Dev nD,
      r.2.mem ((c.tc : Thread nD τ).loc main_v38) = Gen.W4 (F := F) m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.RegionPayload.lean ====
/-
  The arithmetic of one row block of a dense stage, read at an entry.

  Both regions compute, on a block of 5000 rows, `a @ Wlᵀ + x @ Wrᵀ + b` (the first followed by
  `max(·, 0)`): each product is a matrix product of the block with the TRANSPOSED weight into a zero
  accumulator, the casts to the narrower float format are the identity on the extended reals, and
  the bias vector is viewed as one row and repeated down the block.  Read at row `p` and output
  feature `q` of the block this is
      (∑ₖ a[p,k] · Wl[q,k]) + (∑ₖ x[p,k] · Wr[q,k]) + b[q]
  — the contraction runs over the second coordinate of BOTH factors, because the transpose swaps the
  weight's coordinates, and the accumulator's zero drops out.
-/
import proofs.«172413_j65103114273323_1_alg».proof.Proof.Gen.KernelIdeal.Frame
import proofs.«172413_j65103114273323_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

/-! ## The product's operand indices: at output entry `(r, c)` and contraction index `k` the left operand is read at `(r, k)`, the right at `(k, c)` -/

/-- The left operand's row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a TRANSPOSED weight, into the zero accumulator, at entry `(p, q)`: `∑ₖ a[p,k] · w[q,k]`.
    The contraction's one-axis index set is re-indexed by `Fin 128`; the transpose turns the right
    operand's `(k, q)` into the weight's `(q, k)`. -/
theorem matmul_transpose_apply (a : FVec Ideal S5000x128 .bf16) (w : FVec Ideal S128x128 .bf16) (p : Fin 5000) (q : Fin 128) :
    matmul dot_S5000x128_S128x128_S5000x128_1_0_0_1_n_n none a (transpose S128x128 [1, 0] w transposes_S128x128_p1_0_S128x128)
        (constant (F := Ideal) S5000x128 .f32 0x00000000#32) (ix2 p q)
      = ∑ k : Fin 128, a (ix2 p k) * w (ix2 q k) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  rw [el]
  congr 1
  refine transpose_apply [1, 0] w transposes_S128x128_p1_0_S128x128 _ (ix2 q k) (fun b => ?_)
  match b with
  | ⟨0, _⟩ => exact ((rhs_contr (ix2 p q) _).trans hk).symm
  | ⟨1, _⟩ => exact (rhs_col (ix2 p q) _).symm

/-! ## The bias: a vector viewed as one row and repeated down the block -/

/-- Entry `(p, q)` of the repeated bias is `b[q]`: the repetition reads row 0 of the one-row view, whose
    row-major position `0 · 128 + q` is the vector's position `q`. -/
theorem bias_row (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (0 : Fin 1) q) fun a => ?_).trans ?_
  · match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = 0 * 128 + q.val
    omega

/-! ## The bodies load and store whole blocks: the rectangles' offsets are all zero -/

theorem hz2 : (![0, 0] : Fin 2 → Nat) = fun _ => 0 := funext fun a => by fin_cases a <;> rfl
theorem hz1 : (![0] : Fin 1 → Nat) = fun _ => 0 := funext fun a => by fin_cases a; rfl

/-! ## The two bodies' stored values at an entry -/

/-- The first layer's block at `(p, q)`: both products, the bias, then the rectifier. -/
theorem pay0_apply (x0 x1 : Vec Ideal S5000x128 .f32) (x2 x3 : Vec Ideal S128x128 .f32) (x4 : Vec Ideal S128 .f32) (p : Fin 5000) (q : Fin 128) :
    k0_pay1 (F := Ideal) x0 x1 x2 x3 x4 (ix2 p q)
      = max ((∑ k : Fin 128, x0 (ix2 p k) * x2 (ix2 q k)) + (∑ k : Fin 128, x1 (ix2 p k) * x3 (ix2 q k)) + x4 (ix1 q)) 0 := by
  unfold k0_pay1
  dsimp only
  rw [maximumf_apply, addf_apply, addf_apply, matmul_transpose_apply, matmul_transpose_apply, bias_row, broadcast_apply]
  simp only [truncf_apply, shapeCast_self]
  exact congrArg (max _) Ideal.ofBits_zero_f32

/-- The second layer's block at `(p, q)`: both products and the bias, no rectifier. -/
theorem pay1_apply (x0 x1 : Vec Ideal S5000x128 .f32) (x2 x3 : Vec Ideal S128x128 .f32) (x4 : Vec Ideal S128 .f32) (p : Fin 5000) (q : Fin 128) :
    k1_pay1 (F := Ideal) x0 x1 x2 x3 x4 (ix2 p q)
      = (∑ k : Fin 128, x0 (ix2 p k) * x2 (ix2 q k)) + (∑ k : Fin 128, x1 (ix2 p k) * x3 (ix2 q k)) + x4 (ix1 q) := by
  unfold k1_pay1
  dsimp only
  rw [addf_apply, addf_apply, matmul_transpose_apply, matmul_transpose_apply, bias_row]
  simp only [truncf_apply, shapeCast_self]

/-! ## A block of the dense stage against the specification -/

/-- If row `p` of the two loaded feature blocks is row `r` of the two feature arrays, and the other three
    loaded blocks are the whole of the two weights and the bias, then entry `(p, q)` of the first
    layer's stored block is the specification's rectified dense stage at row `r`, feature `q`. -/
theorem pay0_eq_spec (mean x : Cert.Sage.SN.Idx → EReal) (Wl Wr : Cert.Sage.SW.Idx → EReal) (b : Cert.Sage.SB.Idx → EReal)
    (x0 x1 : Vec Ideal S5000x128 .f32) (x2 x3 : Vec Ideal S128x128 .f32) (x4 : Vec Ideal S128 .f32)
    (p : Fin 5000) (q : Fin 128) (r : Fin 100000)
    (h0 : ∀ k : Fin 128, x0 (ix2 p k) = mean (ix2 r k)) (h1 : ∀ k : Fin 128, x1 (ix2 p k) = x (ix2 r k))
    (h2 : x2 = Wl) (h3 : x3 = Wr) (h4 : x4 = b) :
    k0_pay1 (F := Ideal) x0 x1 x2 x3 x4 (ix2 p q) = Cert.Sage.reluDense mean x Wl Wr b (ix2 r q) := by
  rw [pay0_apply, Cert.Sage.reluDense_apply]
  unfold Cert.Sage.denseAt
  subst h2 h3 h4
  simp only [h0, h1]

/-- The same for the second layer's stored block, without the rectifier. -/
theorem pay1_eq_spec (mean x : Cert.Sage.SN.Idx → EReal) (Wl Wr : Cert.Sage.SW.Idx → EReal) (b : Cert.Sage.SB.Idx → EReal)
    (x0 x1 : Vec Ideal S5000x128 .f32) (x2 x3 : Vec Ideal S128x128 .f32) (x4 : Vec Ideal S128 .f32)
    (p : Fin 5000) (q : Fin 128) (r : Fin 100000)
    (h0 : ∀ k : Fin 128, x0 (ix2 p k) = mean (ix2 r k)) (h1 : ∀ k : Fin 128, x1 (ix2 p k) = x (ix2 r k))
    (h2 : x2 = Wl) (h3 : x3 = Wr) (h4 : x4 = b) :
    k1_pay1 (F := Ideal) x0 x1 x2 x3 x4 (ix2 p q) = Cert.Sage.dense mean x Wl Wr b (ix2 r q) := by
  rw [pay1_apply, Cert.Sage.dense_apply]
  unfold Cert.Sage.denseAt
  subst h2 h3 h4
  simp only [h0, h1]

end Cert.KernelIdeal.RegionValue

end
-- ==== Proof.Region0.lean ====
/-
  The first dense stage as the row-blocked region leaves it: the output array in closed form.

  The region visits 20 points; point `t` is handed rows `5000·t … 5000·t + 4999` of the two feature
  arrays and the whole of both weights and of the bias, and writes back rows `5000·t … 5000·t + 4999`
  of the output.  What it writes at row `p` of the block and feature `q` is the specification's dense
  stage, rectified, at row `5000·t + p` — a row of the output depends on the same row of the features only —,
  so every write-back is a block of ONE whole-array function; the 20 blocks tile the 100000 rows
  (row `r` lies in block `r / 5000`), hence the array ends equal to that function.
-/
import proofs.«172413_j65103114273323_1_alg».proof.Proof.RegionPayload

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

-- the arrays as the region finds them
variable (V : (c : Dev nD) → (b : Ref sig .tc) → Buf (Elt Ideal) ((c : Thread nD τ).loc b))

/-! ## Which block each window holds at a point -/

/-- Over the 20 points: the two feature windows and the output window hold row block `t` (column block 0);
    the weights' and the bias's windows hold block 0, the whole array. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The input blocks as parts of their arrays: a block's coordinate is block index × block size + the coordinate inside -/

/-- Entry `y` of window 0's block at point `t` is the array's entry `5000·t` rows further down. -/
theorem iblk0_0_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_v24 : S100000x128.Idx → EReal) k := by
  obtain ⟨e0, e1, -⟩ := idx_facts0 t
  unfold iblk0
  rw [View.read_apply]
  show V c main_v24 _ = V c main_v24 _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- Entry `y` of window 1's block at point `t` is the array's entry `5000·t` rows further down. -/
theorem iblk0_1_apply (c : Dev nD) (t : Fin cfg0.N) (y : S5000x128.Idx) (k : S100000x128.Idx)
    (hk0 : (k 0).val = 5000 * t.val + (y 0).val) (hk1 : (k 1).val = (y 1).val) :
    (iblk0 V c 1 t : Vec Ideal S5000x128 .f32) y = (V c main_arg0 : S100000x128.Idx → EReal) k := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t 0 * 5000 + 1 * (y 0).val = (k 0).val; rw [e0, hk0]; omega
  | ⟨1, _⟩ => show win0_1.index t 1 * 128 + 1 * (y 1).val = (k 1).val; rw [e1, hk1]; omega

/-- Window 2's block is the whole weight at every point. -/
theorem iblk0_2_eq (c : Dev nD) (t : Fin cfg0.N) :
    (iblk0 V c 2 t : Vec Ideal S128x128 .f32) = (V c main_arg2 : S128x128.Idx → EReal) := by
  obtain ⟨-, -, -, -, e0, e1, -⟩ := idx_facts0 t
  funext y
  unfold iblk0
  rw [View.read_apply]
  show V c main_arg2 _ = V c main_arg2 y
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Window 3's block is the whole weight at every point. -/
theorem iblk0_3_eq (c : Dev nD) (t : Fin cfg0.N) :
    (iblk0 V c 3 t : Vec Ideal S128x128 .f32) = (V c main_arg3 : S128x128.Idx → EReal) := by
  obtain ⟨-, -, -, -, -, -, e0, e1, -⟩ := idx_facts0 t
  funext y
  unfold iblk0
  rw [View.read_apply]
  show V c main_arg3 _ = V c main_arg3 y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- Window 4's block is the whole bias at every point. -/
theorem iblk0_4_eq (c : Dev nD) (t : Fin cfg0.N) :
    (iblk0 V c 4 t : Vec Ideal S128 .f32) = (V c main_arg4 : S128.Idx → EReal) := by
  obtain ⟨-, -, -, -, -, -, -, -, e0, -⟩ := idx_facts0 t
  funext y
  unfold iblk0
  rw [View.read_apply]
  show V c main_arg4 _ = V c main_arg4 y
  congr 1
  funext a
  apply Fin.ext
  match a with
  | ⟨0, _⟩ => show win0_4.index t 0 * 128 + 1 * (y 0).val = (y 0).val; rw [e0]; omega

/-! ## What a point writes back -/

/-- Point `t` writes back block `t` of the specification's rectified dense stage of the arrays as the region finds them:
    the body's one store covers its whole block, and entry `(p, q)` of what it stores is the dense stage at
    row `5000·t + p`, feature `q`. -/
theorem flushed0_eq (c : Dev nD) (t : Fin cfg0.N) :
    (dat0 (F := Ideal) V c).flushed 5 t = ((cfg0.win 5).blk t).view.read (Elt Ideal)
      (Cert.Sage.reluDense (V c main_v24) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  funext j
  obtain ⟨-, -, -, -, -, -, -, -, -, e0, e1⟩ := idx_facts0 t
  have hp : (j 0).val < 5000 := (j 0).isLt
  have hq : (j 1).val < 128 := (j 1).isLt
  have ht : t.val < 20 := by have h := t.isLt; have hN : cfg0.N = 20 := N_0; omega
  rw [View.read_apply]
  -- the entry inside the block, by its two coordinates
  have hL : (cfg0.win 5).xinj (grid0.coords t) j = ix2 (⟨(j 0).val, hp⟩ : Fin 5000) (⟨(j 1).val, hq⟩ : Fin 128) := by
    funext a
    match a with
    | ⟨0, _⟩ => rfl
    | ⟨1, _⟩ => rfl
  -- the array entry under it: 5000·t rows further down
  have hR : ((cfg0.win 5).blk t).view.emb j = ix2 (⟨5000 * t.val + (j 0).val, by omega⟩ : Fin 100000) (⟨(j 1).val, hq⟩ : Fin 128) := by
    funext a
    apply Fin.ext
    match a with
    | ⟨0, _⟩ => show win0_5.index t 0 * 5000 + 1 * (j 0).val = 5000 * t.val + (j 0).val; rw [e0]; omega
    | ⟨1, _⟩ => show win0_5.index t 1 * 128 + 1 * (j 1).val = (j 1).val; rw [e1]; omega
  refine (congrArg (k0_pay1 (F := Ideal) (iblk0 V c 0 t) (iblk0 V c 1 t) (iblk0 V c 2 t) (iblk0 V c 3 t) (iblk0 V c 4 t)) hL).trans ?_
  refine Eq.trans ?_ (congrArg (Cert.Sage.reluDense (V c main_v24) (V c main_arg0) (V c main_arg2) (V c main_arg3) (V c main_arg4)) hR.symm)
  exact pay0_eq_spec (V c main_v24) (V c main_arg0) (V c main_arg2) (V c main_arg3) (V c main_arg4)
    (iblk0 V c 0 t) (iblk0 V c 1 t) (iblk0 V c 2 t) (iblk0 V c 3 t) (iblk0 V c 4 t)
    (⟨(j 0).val, hp⟩ : Fin 5000) (⟨(j 1).val, hq⟩ : Fin 128) (⟨5000 * t.val + (j 0).val, by omega⟩ : Fin 100000)
    (fun k => iblk0_0_apply V c t _ _ rfl rfl) (fun k => iblk0_1_apply V c t _ _ rfl rfl)
    (iblk0_2_eq V c t) (iblk0_3_eq V c t) (iblk0_4_eq V c t)

/-! ## The blocks tile the array -/

/-- An entry of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every entry is in some point's block: row `r` is in block `r / 5000`, and every point writes back. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, -, e0, e1⟩ := idx_facts0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ 0 * 5000 ≤ (i 0).val ∧ (i 0).val < win0_5.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ 1 * 128 ≤ (i 1).val ∧ (i 1).val < win0_5.index ⟨(i 0).val / 5000, hlt⟩ 1 * 128 + 128
    rw [e1]
    omega

/-! ## The output array after the region -/

/-- After the last point the output array is the specification's rectified dense stage of the arrays the region was entered with. -/
theorem region0_final (c : Dev nD) :
    (dat0 (F := Ideal) V c).arrAt 5 cfg0.N
      = Cert.Sage.reluDense (V c main_v24) (V c main_arg0) (V c main_arg2) (V c main_arg3) (V c main_arg4) :=
  (dat0 (F := Ideal) V c).arrAt_eq_of_cover 5
    (Cert.Sage.reluDense (V c main_v24) (V c main_arg0) (V c main_arg2) (V c main_arg3) (V c main_arg4))
    (fun t _ => flushed0_eq V c t) cover0

end Cert.KernelIdeal.RegionValue

end
-- ==== Proof.Region1.lean ====
/-
  The second dense stage as the row-blocked region leaves it: the output array in closed form.

  The region visits 20 points; point `t` is handed rows `5000·t … 5000·t + 4999` of the two feature
  arrays and the whole of both weights and of the bias, and writes back rows `5000·t … 5000·t + 4999`
  of the output.  What it writes at row `p` of the block and feature `q` is the specification's dense
  stage at row `5000·t + p` — a row of the output depends on the same row of the features only —,
  so every write-back is a block of ONE whole-array function; the 20 blocks tile the 100000 rows
  (row `r` lies in block `r / 5000`), hence the array ends equal to that function.
-/
import proofs.«172413_j65103114273323_1_alg».proof.Proof.RegionPayload

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

-- the arrays as the region finds them
variable (V : (c : Dev nD) → (b : Ref sig .tc) → Buf (Elt Ideal) ((c : Thread nD τ).loc b))

/-! ## Which block each window holds at a point -/

/-- Over the 20 points: the two feature windows and the output window hold row block `t` (column block 0);
    the weights' and the bias's windows hold block 0, the whole array. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## The input blocks as parts of their arrays: a block's coordinate is block index × block size + the coordinate inside -/

/-- Entry `y` of window 0's block at point `t` is the array's entry `5000·t` rows further down. -/
theorem iblk1_0_apply (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c main_v37 : S100000x128.Idx → EReal) k := by
  obtain ⟨e0, e1, -⟩ := idx_facts1 t
  unfold iblk1
  rw [View.read_apply]
  show V c main_v37 _ = V c main_v37 _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- Entry `y` of window 1's block at point `t` is the array's entry `5000·t` rows further down. -/
theorem iblk1_1_apply (c : Dev nD) (t : Fin cfg1.N) (y : S5000x128.Idx) (k : S100000x128.Idx)
    (hk0 : (k 0).val = 5000 * t.val + (y 0).val) (hk1 : (k 1).val = (y 1).val) :
    (iblk1 V c 1 t : Vec Ideal S5000x128 .f32) y = (V c main_v25 : S100000x128.Idx → EReal) k := by
  obtain ⟨-, -, e0, e1, -⟩ := idx_facts1 t
  unfold iblk1
  rw [View.read_apply]
  show V c main_v25 _ = V c main_v25 _
  congr 1
  funext a
  apply Fin.ext
  match a with
  | ⟨0, _⟩ => show win1_1.index t 0 * 5000 + 1 * (y 0).val = (k 0).val; rw [e0, hk0]; omega
  | ⟨1, _⟩ => show win1_1.index t 1 * 128 + 1 * (y 1).val = (k 1).val; rw [e1, hk1]; omega

/-- Window 2's block is the whole weight at every point. -/
theorem iblk1_2_eq (c : Dev nD) (t : Fin cfg1.N) :
    (iblk1 V c 2 t : Vec Ideal S128x128 .f32) = (V c main_arg5 : S128x128.Idx → EReal) := by
  obtain ⟨-, -, -, -, e0, e1, -⟩ := idx_facts1 t
  funext y
  unfold iblk1
  rw [View.read_apply]
  show V c main_arg5 _ = V c main_arg5 y
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- Window 3's block is the whole weight at every point. -/
theorem iblk1_3_eq (c : Dev nD) (t : Fin cfg1.N) :
    (iblk1 V c 3 t : Vec Ideal S128x128 .f32) = (V c main_arg6 : S128x128.Idx → EReal) := by
  obtain ⟨-, -, -, -, -, -, e0, e1, -⟩ := idx_facts1 t
  funext y
  unfold iblk1
  rw [View.read_apply]
  show V c main_arg6 _ = V c main_arg6 y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- Window 4's block is the whole bias at every point. -/
theorem iblk1_4_eq (c : Dev nD) (t : Fin cfg1.N) :
    (iblk1 V c 4 t : Vec Ideal S128 .f32) = (V c main_arg7 : S128.Idx → EReal) := by
  obtain ⟨-, -, -, -, -, -, -, -, e0, -⟩ := idx_facts1 t
  funext y
  unfold iblk1
  rw [View.read_apply]
  show V c main_arg7 _ = V c main_arg7 y
  congr 1
  funext a
  apply Fin.ext
  match a with
  | ⟨0, _⟩ => show win1_4.index t 0 * 128 + 1 * (y 0).val = (y 0).val; rw [e0]; omega

/-! ## What a point writes back -/

/-- Point `t` writes back block `t` of the specification's dense stage of the arrays as the region finds them:
    the body's one store covers its whole block, and entry `(p, q)` of what it stores is the dense stage at
    row `5000·t + p`, feature `q`. -/
theorem flushed1_eq (c : Dev nD) (t : Fin cfg1.N) :
    (dat1 (F := Ideal) V c).flushed 5 t = ((cfg1.win 5).blk t).view.read (Elt Ideal)
      (Cert.Sage.dense (V c main_v37) (V c main_v25) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  obtain ⟨-, -, -, -, -, -, -, -, -, e0, e1⟩ := idx_facts1 t
  have hp : (j 0).val < 5000 := (j 0).isLt
  have hq : (j 1).val < 128 := (j 1).isLt
  have ht : t.val < 20 := by have h := t.isLt; have hN : cfg1.N = 20 := N_1; omega
  rw [View.read_apply]
  -- the entry inside the block, by its two coordinates
  have hL : (cfg1.win 5).xinj (grid1.coords t) j = ix2 (⟨(j 0).val, hp⟩ : Fin 5000) (⟨(j 1).val, hq⟩ : Fin 128) := by
    funext a
    match a with
    | ⟨0, _⟩ => rfl
    | ⟨1, _⟩ => rfl
  -- the array entry under it: 5000·t rows further down
  have hR : ((cfg1.win 5).blk t).view.emb j = ix2 (⟨5000 * t.val + (j 0).val, by omega⟩ : Fin 100000) (⟨(j 1).val, hq⟩ : Fin 128) := by
    funext a
    apply Fin.ext
    match a with
    | ⟨0, _⟩ => show win1_5.index t 0 * 5000 + 1 * (j 0).val = 5000 * t.val + (j 0).val; rw [e0]; omega
    | ⟨1, _⟩ => show win1_5.index t 1 * 128 + 1 * (j 1).val = (j 1).val; rw [e1]; omega
  refine (congrArg (k1_pay1 (F := Ideal) (iblk1 V c 0 t) (iblk1 V c 1 t) (iblk1 V c 2 t) (iblk1 V c 3 t) (iblk1 V c 4 t)) hL).trans ?_
  refine Eq.trans ?_ (congrArg (Cert.Sage.dense (V c main_v37) (V c main_v25) (V c main_arg5) (V c main_arg6) (V c main_arg7)) hR.symm)
  exact pay1_eq_spec (V c main_v37) (V c main_v25) (V c main_arg5) (V c main_arg6) (V c main_arg7)
    (iblk1 V c 0 t) (iblk1 V c 1 t) (iblk1 V c 2 t) (iblk1 V c 3 t) (iblk1 V c 4 t)
    (⟨(j 0).val, hp⟩ : Fin 5000) (⟨(j 1).val, hq⟩ : Fin 128) (⟨5000 * t.val + (j 0).val, by omega⟩ : Fin 100000)
    (fun k => iblk1_0_apply V c t _ _ rfl rfl) (fun k => iblk1_1_apply V c t _ _ rfl rfl)
    (iblk1_2_eq V c t) (iblk1_3_eq V c t) (iblk1_4_eq V c t)

/-! ## The blocks tile the array -/

/-- An entry of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Every entry is in some point's block: row `r` is in block `r / 5000`, and every point writes back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, e0, e1⟩ := idx_facts1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ 0 * 5000 ≤ (i 0).val ∧ (i 0).val < win1_5.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ 1 * 128 ≤ (i 1).val ∧ (i 1).val < win1_5.index ⟨(i 0).val / 5000, hlt⟩ 1 * 128 + 128
    rw [e1]
    omega

/-! ## The output array after the region -/

/-- After the last point the output array is the specification's dense stage of the arrays the region was entered with. -/
theorem region1_final (c : Dev nD) :
    (dat1 (F := Ideal) V c).arrAt 5 cfg1.N
      = Cert.Sage.dense (V c main_v37) (V c main_v25) (V c main_arg5) (V c main_arg6) (V c main_arg7) :=
  (dat1 (F := Ideal) V c).arrAt_eq_of_cover 5
    (Cert.Sage.dense (V c main_v37) (V c main_v25) (V c main_arg5) (V c main_arg6) (V c main_arg7))
    (fun t _ => flushed1_eq V c t) cover1

end Cert.KernelIdeal.RegionValue

end
-- ==== Proof.HostReads.lean ====
/-
  The kernel program's two runs of host operations, read.

  The program alternates host operations with its two dense stages.  The first run of host operations
  takes the edge list apart (sources, destinations), counts the in-degrees, forms the column
  `1 / max(deg, 1)` and the neighbour mean of the input features; the second run forms the neighbour
  mean of the hidden features, recomputing the wrapped sources but reusing the destinations and the
  reciprocal column of the first run.  This module reads, at the entry of each dense stage
  (`Gen.V1`, `Gen.V3` of the imported frame module), every array the stage's windows look at:

    * the mean is `HostMean.meanK` of the edge list and of the features it averages
      (the input features for the first stage, the first stage's output for the second);
    * the features themselves, the weights and the biases are what they were: no host operation
      writes them, and the first dense stage writes none of the second stage's weights.
-/
import proofs.«172413_j65103114273323_1_alg».proof.Proof.Gen.KernelIdeal.Frame
import proofs.«172413_j65103114273323_1_alg».proof.Proof.HostMean

noncomputable section

namespace Cert.KernelIdeal.RunValue

open Idealize.ShloMosaic Idealize.ShloMosaic.TcCoe
open Cert.KernelIdeal Cert.KernelIdeal.HostMean

variable (m : (ℓ : Loc nD τ sig) → Buf (Elt Ideal) ℓ) (ρ : Dev nD → PrngReg) (c : Dev nD)

/-! ## Arrays a run of host operations does not write -/

/-- No operation of the list `ops` writes the buffer in question: each operation writes one buffer, its
    result, and that is a different reference. -/
local macro "unwritten" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first dense stage finds the input features as launched. -/
theorem V1_arg0 : Gen.V1 (F := Ideal) m ρ c main_arg0 = m ((c : Thread nD τ).loc main_arg0) :=
  (StableHlo.after_of_forall_not_mem (b := Proc.devRef .tc main_arg0) _ _ (by unwritten Gen.hostOps0)).trans rfl
/-- The first dense stage finds its neighbour weights as launched. -/
theorem V1_arg2 : Gen.V1 (F := Ideal) m ρ c main_arg2 = m ((c : Thread nD τ).loc main_arg2) :=
  (StableHlo.after_of_forall_not_mem (b := Proc.devRef .tc main_arg2) _ _ (by unwritten Gen.hostOps0)).trans rfl
/-- The first dense stage finds its root weights as launched. -/
theorem V1_arg3 : Gen.V1 (F := Ideal) m ρ c main_arg3 = m ((c : Thread nD τ).loc main_arg3) :=
  (StableHlo.after_of_forall_not_mem (b := Proc.devRef .tc main_arg3) _ _ (by unwritten Gen.hostOps0)).trans rfl
/-- The first dense stage finds its bias as launched. -/
theorem V1_arg4 : Gen.V1 (F := Ideal) m ρ c main_arg4 = m ((c : Thread nD τ).loc main_arg4) :=
  (StableHlo.after_of_forall_not_mem (b := Proc.devRef .tc main_arg4) _ _ (by unwritten Gen.hostOps0)).trans rfl

/-! ## What the first run of host operations computes -/

set_option maxHeartbeats 400000 in
/-- The edges' sources: row 0 of the edge list. -/
theorem V1_v1 : (Gen.V1 (F := Ideal) m ρ c main_v1 : (⟨S1600000, .i32⟩ : BufTy).Contents (Elt Ideal))
    = srcOf (m ((c : Thread nD τ).loc main_arg1)) := by
  dsimp only [Gen.V1, Gen.W1, Gen.hostOps0]
  after_results_simp
  rfl

set_option maxHeartbeats 400000 in
/-- The edges' destinations: row 1 of the edge list. -/
theorem V1_v3 : (Gen.V1 (F := Ideal) m ρ c main_v3 : (⟨S1600000, .i32⟩ : BufTy).Contents (Elt Ideal))
    = dstOf (m ((c : Thread nD τ).loc main_arg1)) := by
  dsimp only [Gen.V1, Gen.W1, Gen.hostOps0]
  after_results_simp
  rfl

set_option maxHeartbeats 400000 in
/-- The column `1 / max(deg, 1)`, the in-degree counted over the destinations. -/
theorem V1_v12 : (Gen.V1 (F := Ideal) m ρ c main_v12 : (⟨S100000x1, .f32⟩ : BufTy).Contents (Elt Ideal))
    = invDegOf (dstOf (m ((c : Thread nD τ).loc main_arg1))) := by
  dsimp only [Gen.V1, Gen.W1, Gen.hostOps0]
  after_results_simp
  rfl

set_option maxHeartbeats 400000 in
/-- The first dense stage's mean window looks at the neighbour mean of the input features. -/
theorem V1_v24 : (Gen.V1 (F := Ideal) m ρ c main_v24 : (⟨S100000x128, .f32⟩ : BufTy).Contents (Elt Ideal))
    = meanK (m ((c : Thread nD τ).loc main_arg1)) (m ((c : Thread nD τ).loc main_arg0)) := by
  dsimp only [Gen.V1, Gen.W1, Gen.hostOps0]
  after_results_simp
  rfl

/-! ## The second run of host operations -/

/-- The second dense stage finds the hidden features as the first stage left them. -/
theorem V3_v25 : Gen.V3 (F := Ideal) m ρ c main_v25 = Gen.V2 (F := Ideal) m ρ c main_v25 :=
  StableHlo.after_of_forall_not_mem (b := Proc.devRef .tc main_v25) _ _ (by unwritten Gen.hostOps1)

/-- The second dense stage finds its neighbour weights as launched: neither run of host operations writes them,
    and they are none of the first stage's arrays. -/
theorem V3_arg5 : Gen.V3 (F := Ideal) m ρ c main_arg5 = m ((c : Thread nD τ).loc main_arg5) :=
  calc Gen.V3 (F := Ideal) m ρ c main_arg5
    _ = Gen.W2 m ρ c (Proc.devRef .tc main_arg5) := StableHlo.after_of_forall_not_mem (b := Proc.devRef .tc main_arg5) _ _ (by unwritten Gen.hostOps1)
    _ = Gen.W1 m ρ c (Proc.devRef .tc main_arg5) := Gen.W2_of_ne m ρ c main_arg5 (by decide)
    _ = Gen.W0 m ρ c (Proc.devRef .tc main_arg5) := StableHlo.after_of_forall_not_mem (b := Proc.devRef .tc main_arg5) _ _ (by unwritten Gen.hostOps0)
    _ = m ((c : Thread nD τ).loc main_arg5) := rfl
/-- The second dense stage finds its root weights as launched. -/
theorem V3_arg6 : Gen.V3 (F := Ideal) m ρ c main_arg6 = m ((c : Thread nD τ).loc main_arg6) :=
  calc Gen.V3 (F := Ideal) m ρ c main_arg6
    _ = Gen.W2 m ρ c (Proc.devRef .tc main_arg6) := StableHlo.after_of_forall_not_mem (b := Proc.devRef .tc main_arg6) _ _ (by unwritten Gen.hostOps1)
    _ = Gen.W1 m ρ c (Proc.devRef .tc main_arg6) := Gen.W2_of_ne m ρ c main_arg6 (by decide)
    _ = Gen.W0 m ρ c (Proc.devRef .tc main_arg6) := StableHlo.after_of_forall_not_mem (b := Proc.devRef .tc main_arg6) _ _ (by unwritten Gen.hostOps0)
    _ = m ((c : Thread nD τ).loc main_arg6) := rfl
/-- The second dense stage finds its bias as launched. -/
theorem V3_arg7 : Gen.V3 (F := Ideal) m ρ c main_arg7 = m ((c : Thread nD τ).loc main_arg7) :=
  calc Gen.V3 (F := Ideal) m ρ c main_arg7
    _ = Gen.W2 m ρ c (Proc.devRef .tc main_arg7) := StableHlo.after_of_forall_not_mem (b := Proc.devRef .tc main_arg7) _ _ (by unwritten Gen.hostOps1)
    _ = Gen.W1 m ρ c (Proc.devRef .tc main_arg7) := Gen.W2_of_ne m ρ c main_arg7 (by decide)
    _ = Gen.W0 m ρ c (Proc.devRef .tc main_arg7) := StableHlo.after_of_forall_not_mem (b := Proc.devRef .tc main_arg7) _ _ (by unwritten Gen.hostOps0)
    _ = m ((c : Thread nD τ).loc main_arg7) := rfl

set_option maxHeartbeats 400000 in
/-- The second run's mean over the four arrays it reads: the hidden features, and the sources, the destinations and
    the reciprocal column that the first run left. -/
theorem V3_v37_of : (Gen.V3 (F := Ideal) m ρ c main_v37 : (⟨S100000x128, .f32⟩ : BufTy).Contents (Elt Ideal))
    = meanOf (Gen.V2 (F := Ideal) m ρ c main_v25) (Gen.V2 (F := Ideal) m ρ c main_v1) (Gen.V2 (F := Ideal) m ρ c main_v3)
        (Gen.V2 (F := Ideal) m ρ c main_v12) := by
  dsimp only [Gen.V3, Gen.W3, Gen.hostOps1]
  after_results_simp
  rfl

/-- The first dense stage leaves the sources alone: they are none of its arrays. -/
theorem V2_v1 : (Gen.V2 (F := Ideal) m ρ c main_v1 : (⟨S1600000, .i32⟩ : BufTy).Contents (Elt Ideal))
    = srcOf (m ((c : Thread nD τ).loc main_arg1)) :=
  (Gen.W2_of_ne m ρ c main_v1 (by decide)).trans (V1_v1 m ρ c)
/-- The first dense stage leaves the destinations alone. -/
theorem V2_v3 : (Gen.V2 (F := Ideal) m ρ c main_v3 : (⟨S1600000, .i32⟩ : BufTy).Contents (Elt Ideal))
    = dstOf (m ((c : Thread nD τ).loc main_arg1)) :=
  (Gen.W2_of_ne m ρ c main_v3 (by decide)).trans (V1_v3 m ρ c)
/-- The first dense stage leaves the reciprocal column alone. -/
theorem V2_v12 : (Gen.V2 (F := Ideal) m ρ c main_v12 : (⟨S100000x1, .f32⟩ : BufTy).Contents (Elt Ideal))
    = invDegOf (dstOf (m ((c : Thread nD τ).loc main_arg1))) :=
  (Gen.W2_of_ne m ρ c main_v12 (by decide)).trans (V1_v12 m ρ c)

/-- The second dense stage's mean window looks at the neighbour mean of the hidden features. -/
theorem V3_v37 : (Gen.V3 (F := Ideal) m ρ c main_v37 : (⟨S100000x128, .f32⟩ : BufTy).Contents (Elt Ideal))
    = meanK (m ((c : Thread nD τ).loc main_arg1)) (Gen.V2 (F := Ideal) m ρ c main_v25) := by
  rw [V3_v37_of, V2_v1, V2_v3, V2_v12]
  rfl

end Cert.KernelIdeal.RunValue

end
-- ==== Proof.KernelValue.lean ====
/-
  What the kernel's program leaves in its result array, as one function of the arguments.

  The program is two row-tiled regions among host operations.  Reading the buffers at each boundary:
    * before the first region the host has formed the neighbour mean of the input features
      (summed neighbour rows times the column `1 / max(deg, 1)`), and the arguments are untouched;
    * the first region turns that mean, the features and the first layer's weights into the hidden
      features `max(mean · W1lᵀ + x · W1rᵀ + b1, 0)`, row block by row block;
    * between the regions the host forms the neighbour mean of the HIDDEN features, with the same
      wrapped sources, destinations and reciprocal column as before;
    * the second region turns that mean, the hidden features and the second layer's weights into
      `mean₂ · W2lᵀ + h · W2rᵀ + b2`.
  Composed, the result array is the two-layer network of the specification with the kernel program's
  spelling of the neighbour mean.
-/
import proofs.«172413_j65103114273323_1_alg».proof.Proof.Region0
import proofs.«172413_j65103114273323_1_alg».proof.Proof.Region1
import proofs.«172413_j65103114273323_1_alg».proof.Proof.HostReads

noncomputable section

namespace Cert.KernelIdeal.KernelValue

open Idealize.ShloMosaic Idealize.ShloMosaic.TcCoe Idealize.SL.Sem
open Cert.KernelIdeal Cert.KernelIdeal.HostMean Cert.KernelIdeal.RunValue

variable (m : (ℓ : Loc nD τ sig) → Buf (Elt Ideal) ℓ) (ρ : Dev nD → PrngReg) (c : Dev nD)

/-- The hidden features: what the first region leaves in its output array. -/
theorem hidden_eq : Gen.V2 (F := Ideal) m ρ c main_v25
    = Cert.Sage.hidden (meanK (m ((c : Thread nD τ).loc main_arg1))) (m ((c : Thread nD τ).loc main_arg0))
        (m ((c : Thread nD τ).loc main_arg2)) (m ((c : Thread nD τ).loc main_arg3)) (m ((c : Thread nD τ).loc main_arg4)) := by
  refine (Gen.W2_arr m ρ c 5).trans ?_
  rw [Cert.KernelIdeal.RegionValue.region0_final, V1_v24, V1_arg0, V1_arg2, V1_arg3, V1_arg4]
  rfl

/-- The result array: the second layer applied to the hidden features and their neighbour mean. -/
theorem result_eq : Gen.W4 (F := Ideal) m ρ c (Proc.devRef .tc main_v38)
    = Cert.Sage.net (meanK (m ((c : Thread nD τ).loc main_arg1))) (m ((c : Thread nD τ).loc main_arg0))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (Gen.W4_arr m ρ c 5).trans ?_
  rw [Cert.KernelIdeal.RegionValue.region1_final, V3_v37, V3_v25, V3_arg5, V3_arg6, V3_arg7, hidden_eq]
  rfl

end Cert.KernelIdeal.KernelValue

end
-- ==== Proof.lean ====
/-
  A two-layer GraphSAGE network: the kernel's program against its jnp reference, over the extended reals.

  Each layer takes node features `x`, forms for every node the mean of its in-neighbours' features
  (rows of the sources gathered, scatter-added at the destinations, scaled by the floored in-degree
  `d = max(deg, 1)`), and returns `mean · Wlᵀ + x · Wrᵀ + b`; the first layer is followed by `max(·, 0)`.

  The kernel's program computes the dense stage of each layer in a row-tiled region (twenty blocks of
  5000 rows; the bf16 casts on the way into the matrix unit are the identity on the extended reals,
  and a matrix product into a zero accumulator is the plain sum of products), and scales the summed
  rows by the reciprocal column `1 / d`.  The reference divides the summed rows by `d` and uses whole
  matrix products.  Both are the network `Cert.Sage.net` of one and the same arguments, the kernel's
  with the mean spelt `A · (1 / d)` (`KernelValue.result_eq` over the run `RunValue.run_named`), the
  reference's with `A / d` (`RefValue.res_eq` over its run).  The two spellings agree on every
  extended real because `d ≥ 1` is never zero (`MeanLaw.meanK_eq_meanR`): `a / d = a · d⁻¹` and
  `1 / d = d⁻¹`.  No step uses that the inputs are finite, and the gather and scatter-add, which both
  programs apply identically, are never opened.

  The idealization rewrote nothing in the kernel, so `preserves` has no conjunct.
-/
import proofs.«172413_j65103114273323_1_alg».proof.Defs
import proofs.«172413_j65103114273323_1_alg».proof.Proof.Gen.Kernel
import proofs.«172413_j65103114273323_1_alg».proof.Proof.Gen.Kernel.Skeleton
import proofs.«172413_j65103114273323_1_alg».proof.Proof.Gen.Kernel.Launch
import proofs.«172413_j65103114273323_1_alg».proof.Proof.Gen.Kernel.Points
import proofs.«172413_j65103114273323_1_alg».proof.Proof.Gen.Kernel.Frame
import proofs.«172413_j65103114273323_1_alg».proof.Proof.Gen.KernelIdeal
import proofs.«172413_j65103114273323_1_alg».proof.Proof.Gen.KernelIdeal.Skeleton
import proofs.«172413_j65103114273323_1_alg».proof.Proof.Gen.KernelIdeal.Launch
import proofs.«172413_j65103114273323_1_alg».proof.Proof.Gen.KernelIdeal.Points
import proofs.«172413_j65103114273323_1_alg».proof.Proof.Gen.KernelIdeal.Frame
import proofs.«172413_j65103114273323_1_alg».proof.Proof.Gen.ReferenceIdeal
import proofs.«172413_j65103114273323_1_alg».proof.Proof.Gen.ReferenceIdeal.Run
import proofs.«172413_j65103114273323_1_alg».proof.Proof.Gen.ReferenceIdeal.Read
import proofs.«172413_j65103114273323_1_alg».proof.Proof.Gen.Pre_finite_inputs
import proofs.«172413_j65103114273323_1_alg».proof.Proof.MeanLaw
import proofs.«172413_j65103114273323_1_alg».proof.Proof.RefValue
import proofs.«172413_j65103114273323_1_alg».proof.Proof.KernelRun
import proofs.«172413_j65103114273323_1_alg».proof.Proof.KernelValue
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments in their
    result arrays: the kernel's with the mean as a product with `1 / d`, the reference's as a quotient by `d`,
    which are one function. -/
theorem algebraic : Cert.algebraic_KernelIdeal_ReferenceIdeal := by
  intro m ρ m' ρ' _ hagree
  refine ⟨fun c => Cert.Sage.net (Cert.KernelIdeal.HostMean.meanK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.RefValue.res_eq, a0, a1, a2, a3, a4, a5, a6, a7]
    exact congrArg (fun μ => Cert.Sage.net μ _ _ _ _ _ _ _) (funext fun f => (Cert.MeanLaw.meanK_eq_meanR _ f).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
